-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S16384x4096 : Shape := ⟨2, ![16384, 4096]⟩
abbrev S16384 : Shape := ⟨1, ![16384]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x4096x4096 .f32) (main_arg1 : FVec F S16384x4096 .f32) (main_arg2 : FVec F S16384 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x4096x4096 : Shape := ⟨3, ![2, 4096, 4096]⟩
abbrev S16384x4096 : Shape := ⟨2, ![16384, 4096]⟩
abbrev S16384 : Shape := ⟨1, ![16384]⟩
abbrev S_ : Shape := ⟨0, ![]⟩
abbrev S8192x4096 : Shape := ⟨2, ![8192, 4096]⟩
abbrev S8192x16384 : Shape := ⟨2, ![8192, 16384]⟩
abbrev S512x4096 : Shape := ⟨2, ![512, 4096]⟩
abbrev S1024x4096 : Shape := ⟨2, ![1024, 4096]⟩
abbrev S1024 : Shape := ⟨1, ![1024]⟩
abbrev S512x1024 : Shape := ⟨2, ![512, 1024]⟩
abbrev S4096x1024 : Shape := ⟨2, ![4096, 1024]⟩
abbrev S1x1024 : Shape := ⟨2, ![1, 1024]⟩
abbrev S2x4096x16384 : Shape := ⟨3, ![2, 4096, 16384]⟩

abbrev nBuf : Space → Nat
  | .hbm => 26
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .bf16⟩
  | .hbm, ⟨22, _⟩ => ⟨S2x4096x4096, .bf16⟩
  | .hbm, ⟨23, _⟩ => ⟨S8192x4096, .bf16⟩
  | .hbm, ⟨24, _⟩ => ⟨S8192x16384, .f32⟩
  | .hbm, ⟨25, _⟩ => ⟨S2x4096x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024, .f32⟩
  | .local _ .vmem, ⟨5, _⟩ => ⟨S1024, .f32⟩
  | .local _ .vmem, ⟨6, _⟩ => ⟨S512x1024, .f32⟩
  | .local _ .vmem, ⟨7, _⟩ => ⟨S512x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bitsLt_bf16_f32 : FTy.bits .bf16 < FTy.bits .f32
  shapeCasts_S2x4096x4096_S8192x4096 : S2x4096x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x16384_S2x4096x16384 : S8192x16384.ShapeCasts S2x4096x16384
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x16384.size a
  hwx0_3 : ∀ i : grid0.Coords, EltTy.bits .f32 = 32 ∨ (Rect.block (s := S8192x16384) S512x1024.size (cc0_transform_3 i) (hinb0_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v11) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S16384x4096 : Shape := ⟨2, ![16384, 4096]⟩
abbrev S16384 : Shape := ⟨1, ![16384]⟩
abbrev S_ : Shape := ⟨0, ![]⟩
abbrev S2x4096x16384 : Shape := ⟨3, ![2, 4096, 16384]⟩
abbrev S1x1x16384 : Shape := ⟨3, ![1, 1, 16384]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S2x4096x16384, .f32⟩
  | .hbm, ⟨24, _⟩ => ⟨S1x1x16384, .f32⟩
  | .hbm, ⟨25, _⟩ => ⟨S2x4096x16384, .f32⟩
  | .hbm, ⟨26, _⟩ => ⟨S2x4096x16384, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bcast_S16384_S1x1x16384_2 : S16384.BroadcastsInDim S1x1x16384 (![2] : Fin 1 → Fin S1x1x16384.rank)
  bcast_S1x1x16384_S2x4096x16384_0_1_2 : S1x1x16384.BroadcastsInDim S2x4096x16384 (![0, 1, 2] : Fin 3 → Fin S2x4096x16384.rank)
  dot_S2x4096x4096_S16384x4096_S2x4096x16384_2_1_01_0_n_n_wf : DotDims.WF S2x4096x4096 S16384x4096 S2x4096x16384 [2] [1] [0, 1] [0] [] []

variable [Facts₀]

def dot_S2x4096x4096_S16384x4096_S2x4096x16384_2_1_01_0_n_n : DotDims S2x4096x4096 S16384x4096 S2x4096x16384 where
  lhsContracting := [2]
  rhsContracting := [1]
  lhsNonContracting := [0, 1]
  rhsNonContracting := [0]
  lhsBatch := []
  rhsBatch := []
  wf := dot_S2x4096x4096_S16384x4096_S2x4096x16384_2_1_01_0_n_n_wf

class Facts : Prop extends Facts₀ where

variable [Facts]
-- ==== Proof.TernaryLinear.lean ====
import Idealize.ShloMosaic.Lib.ValueIdx
import Idealize.ShloMosaic.PureOps.Ideal

/-!
# A linear layer over ternary weights, entry by entry

The layer maps an activation array `x[b, s, i]` (2 × 4096 × 4096) to `y[b, s, o] = ∑ i, x[b, s, i] · W[o, i] + bias[o]`
(2 × 4096 × 16384), where `W` is the weight array `w` (16384 × 4096) quantised to three levels: with
`α = (∑ |w|) / 2²⁶` the mean absolute weight, `W = α · clamp(roundeven(w / α), -1, 1)`.

The same entries arise when the activations are first laid out as 8192 rows (`row = b · 4096 + s`). A second
spelling of the weights, `w + (W − w)`, is `W` again wherever `w` is a real number, whatever extended real `W` is.
-/

noncomputable section

namespace Cert.TernaryLinear

open Idealize.ShloMosaic Idealize.ShloMosaic.ValueIdx
open scoped BigOperators

/-- The weights' shape and the shape of a single number. -/
abbrev SW : Shape := ⟨2, ![16384, 4096]⟩
abbrev S0 : Shape := ⟨0, ![]⟩

/-- The weights quantised to the three levels `-α, 0, α`, `α` the mean absolute weight: the sum of `|w|` from zero
    over all `2²⁶` entries, divided by `2²⁶`; each weight divided by `α`, rounded to the nearest integer (ties to
    even), clamped to `[-1, 1]`, and multiplied by `α` again. -/
def ternary (hr : SW.ReducesTo [0, 1] S0) (h0 : 0 < S0.numel) (hb : S0.BroadcastsInDim SW (![] : Fin 0 → Fin SW.rank))
    (w : (⟨SW, .f32⟩ : BufTy).Contents (Elt Ideal)) : (⟨SW, .f32⟩ : BufTy).Contents (Elt Ideal) :=
  mulf (broadcastInDim SW ![] hb (Host.divf (Host.reduceAdd (Host.absf w) (constant (F := Ideal) S0 .f32 0x00000000#32) hr h0) (constant (F := Ideal) S0 .f32 0x4C800000#32)))
    (minimumf (broadcastInDim SW ![] hb (id (constant (F := Ideal) S0 .f32 0x3F800000#32)))
      (maximumf (broadcastInDim SW ![] hb (id (constant (F := Ideal) S0 .f32 0xBF800000#32)))
        (Host.roundeven (Host.divf w (broadcastInDim SW ![] hb (Host.divf (Host.reduceAdd (Host.absf w) (constant (F := Ideal) S0 .f32 0x00000000#32) hr h0) (constant (F := Ideal) S0 .f32 0x4C800000#32)))))))

/-- One entry of activations-times-weights-transposed plus bias, the activations laid out as rows: row `p` of `X`
    against row `q` of `W`, summed over the 4096 shared columns, plus entry `q` of the bias. -/
def entry {M N : Nat} (X : (⟨2, ![M, 4096]⟩ : Shape).Idx → EReal) (W : (⟨2, ![N, 4096]⟩ : Shape).Idx → EReal)
    (B : (⟨1, ![N]⟩ : Shape).Idx → EReal) (p : Fin M) (q : Fin N) : EReal :=
  (∑ k : Fin 4096, X (ix2 p k) * W (ix2 q k)) + B (ix1 q)

/-- The layer on 8192 rows: entry `(r, o)` of the 8192 × 16384 result. -/
def rows (X : (⟨2, ![8192, 4096]⟩ : Shape).Idx → EReal) (W : (⟨2, ![16384, 4096]⟩ : Shape).Idx → EReal)
    (B : (⟨1, ![16384]⟩ : Shape).Idx → EReal) : (⟨2, ![8192, 16384]⟩ : Shape).Idx → EReal :=
  fun i => entry X W B (i 0) (i 1)

/-- The layer on the activations as given: entry `(b, s, o)` of the 2 × 4096 × 16384 result. -/
def linear (x : (⟨3, ![2, 4096, 4096]⟩ : Shape).Idx → EReal) (W : (⟨2, ![16384, 4096]⟩ : Shape).Idx → EReal)
    (B : (⟨1, ![16384]⟩ : Shape).Idx → EReal) : (⟨3, ![2, 4096, 16384]⟩ : Shape).Idx → EReal :=
  fun i => (∑ k : Fin 4096, x (ix3 (i 0) (i 1) k) * W (ix2 (i 2) k)) + B (ix1 (i 2))

/-- Adding to a real number the difference of any extended real from it gives that extended real back: at `±∞`
    the difference and the sum are that infinity, since the real number is finite. -/
theorem add_sub_self_of_real (r : ℝ) (q : EReal) : (r : EReal) + (q - (r : EReal)) = q := by
  induction q using EReal.rec with
  | bot => simp
  | top => simp
  | coe a => rw [← EReal.coe_sub, ← EReal.coe_add]; congr 1; ring

end Cert.TernaryLinear

end
-- ==== Proof.Finite.lean ====
import proofs.«158711_j541165879839_1_alg».proof.Defs
import Idealize.ShloMosaic.Lib.ReduceAll
import Idealize.ShloMosaic.Lib.Affine
import Idealize.ShloMosaic.Lib.ValueIdx
import Idealize.ShloMosaic.Lib.Pipeline.Value

/-!
# Finite weights are real numbers

The precondition says of each argument array that every entry's absolute value is below `+∞`. Read at one weight
entry: `max w (-w) < ⊤` on the extended reals, so the entry is neither infinity, hence a real number.
-/

noncomputable section

namespace Cert.Finite

open Idealize.ShloMosaic Idealize.ShloMosaic.ValueIdx

/-- A shape of rank zero has a single index. -/
instance : Subsingleton Cert.Pre_finite_inputs.S_.Idx := ⟨fun a b => funext fun d => d.elim0⟩

/-- Under the precondition every weight is a real number: the conjunction's middle conjunct is the `all` over the
    weight array of `|w| < +∞`, the literal `0x7F800000` being `+∞`. -/
theorem weight_real [Cert.Pre_finite_inputs.Facts] (x : FVec Ideal Cert.Pre_finite_inputs.S2x4096x4096 .f32)
    (w : FVec Ideal Cert.Pre_finite_inputs.S16384x4096 .f32) (b : FVec Ideal Cert.Pre_finite_inputs.S16384 .f32)
    (h : Cert.Pre_finite_inputs.fn (F := Ideal) x w b = fun _ => 1#1) (i : Cert.Pre_finite_inputs.S16384x4096.Idx) :
    ∃ r : ℝ, w i = (r : EReal) := by
  have h0 := congrFun h ix0
  dsimp only [Cert.Pre_finite_inputs.fn] at h0
  obtain ⟨h1, -⟩ := IntOp.andi_eq_one.1 h0
  obtain ⟨-, h2⟩ := IntOp.andi_eq_one.1 h1
  have h3 := Host.reduce_andi_all _ _ _ _ _ h2 i
  have top : Ideal.ofBits .f32 0x7F800000#32 = (⊤ : EReal) := by simp [Ideal.ofBits, Ideal.ieee]
  have h4 : Ideal.cmp .olt (max (w i) (-(w i))) (Ideal.ofBits .f32 0x7F800000#32) = 1#1 := by
    rw [← h3]; unfold cmpf Host.absf
    rw [broadcastInDim_apply _ _ _ i ix0 (fun a => a.elim0)]; rfl
  rw [top] at h4
  have h5 : max (w i) (-(w i)) < ⊤ := by
    by_contra hn
    simp [Ideal.cmp, hn] at h4
  rcases max_lt_iff.1 h5 with ⟨ha, hb⟩
  induction hw : w i using EReal.rec with
  | bot => rw [hw] at hb; simp at hb
  | top => rw [hw] at ha; simp at ha
  | coe r => exact ⟨r, rfl⟩

end Cert.Finite

end
-- ==== Proof.RowsLayout.lean ====
import proofs.«158711_j541165879839_1_alg».proof.Proof.TernaryLinear
import Idealize.ShloMosaic.Lib.Pipeline.Value
import Idealize.ShloMosaic.Lib.ValueIdx

/-!
# The layer on rows is the layer

Laying the 2 × 4096 activation vectors out as 8192 rows (`row = b · 4096 + s`), applying the layer on rows, and
folding the 8192 result rows back to 2 × 4096 gives the layer itself: row-major order sends entry `(b, s, k)` of
the activations to entry `(b · 4096 + s, k)` of the rows, and likewise for the results.
-/

noncomputable section

namespace Cert.TernaryLinear

open Idealize.ShloMosaic Idealize.ShloMosaic.ValueIdx
open scoped BigOperators

/-- The row a pair `(b, s)` becomes. -/
def rowOf (b : Fin 2) (s : Fin 4096) : Fin 8192 := ⟨b.val * 4096 + s.val, by omega⟩

theorem rows_reshape (x : (⟨3, ![2, 4096, 4096]⟩ : Shape).Idx → EReal) (W : (⟨2, ![16384, 4096]⟩ : Shape).Idx → EReal)
    (B : (⟨1, ![16384]⟩ : Shape).Idx → EReal)
    (h1 : (⟨3, ![2, 4096, 4096]⟩ : Shape).ShapeCasts ⟨2, ![8192, 4096]⟩)
    (h2 : (⟨2, ![8192, 16384]⟩ : Shape).ShapeCasts ⟨3, ![2, 4096, 16384]⟩) :
    shapeCast ⟨3, ![2, 4096, 16384]⟩ (rows (shapeCast ⟨2, ![8192, 4096]⟩ x h1) W B) h2 = linear x W B := by
  funext i
  obtain ⟨b, s, o, rfl⟩ : ∃ (b : Fin 2) (s : Fin 4096) (o : Fin 16384), i = ix3 b s o := ⟨i 0, i 1, i 2, eq_ix3 i⟩
  rw [shapeCast_apply _ h2 (ix3 b s o) (ix2 (rowOf b s) o) (by
    rw [Shape.rowMajor_val_two, Shape.rowMajor_val_three]
    show (b.val * 4096 + s.val) * 16384 + o.val = (b.val * 4096 + s.val) * 16384 + o.val
    rfl)]
  show (∑ k : Fin 4096, shapeCast ⟨2, ![8192, 4096]⟩ x h1 (ix2 (rowOf b s) k) * W (ix2 o k)) + B (ix1 o)
    = (∑ k : Fin 4096, x (ix3 b s k) * W (ix2 o k)) + B (ix1 o)
  refine congrArg (· + B (ix1 o)) (Finset.sum_congr rfl fun k _ => ?_)
  rw [shapeCast_apply x h1 (ix2 (rowOf b s) k) (ix3 b s k) (by
    rw [Shape.rowMajor_val_two, Shape.rowMajor_val_three]
    show (b.val * 4096 + s.val) * 4096 + k.val = (b.val * 4096 + s.val) * 4096 + k.val
    rfl)]

end Cert.TernaryLinear

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.BodyTile.lean ====
import proofs.«158711_j541165879839_1_alg».proof.Proof.Gen.KernelIdeal.Skeleton
import proofs.«158711_j541165879839_1_alg».proof.Proof.LibPlainDot
import proofs.«158711_j541165879839_1_alg».proof.Proof.TernaryLinear
import Idealize.ShloMosaic.Lib.Pipeline.Value
import Idealize.ShloMosaic.Lib.ValueLayout

/-!
# What the kernel body computes from its blocks

From a block of 512 activation rows, a block of 1024 weight rows and the matching 1024 bias entries, the body
stores the 512 × 1024 tile whose entry `(p, q)` is activation row `p` against weight row `q`, summed over the 4096
shared columns, plus bias entry `q`: the weight block is transposed and multiplied on the right into a zero
accumulator, and the bias is stood up as one row and copied down the 512 rows.
-/

noncomputable section

namespace Cert.KernelIdeal.Body

open Cert.KernelIdeal Cert.KernelIdeal.Gen Idealize.ShloMosaic Idealize.ShloMosaic.ValueIdx
open scoped BigOperators

/-- The stored tile, entry by entry. -/
theorem tile_apply (x0 : Vec Ideal S512x4096 .bf16) (x1 : Vec Ideal S1024x4096 .bf16) (x2 : Vec Ideal S1024 .f32)
    (p : Fin 512) (q : Fin 1024) :
    k0_pay1 (F := Ideal) x0 x1 x2 (ix2 p q) = Cert.TernaryLinear.entry x0 x1 x2 p q := by
  unfold k0_pay1 Cert.TernaryLinear.entry
  show FloatOps.matmul dot_S512x4096_S4096x1024_S512x1024_1_0_0_1_n_n none
      (shapeCast S512x4096 x0 shapeCasts_S512x4096_S512x4096)
      (transpose S4096x1024 [1, 0] (shapeCast S1024x4096 x1 shapeCasts_S1024x4096_S1024x4096) transposes_S1024x4096_p1_0_S4096x1024)
      (constant (F := Ideal) S512x1024 .f32 0x00000000#32) (ix2 p q)
    + broadcastTo S512x1024 (shapeCast S1x1024 x2 shapeCasts_S1024_S1x1024) broadcasts_S1x1024_S512x1024 (ix2 p q) = _
  rw [Cert.LibPlainDot.matmul_zero_apply _ ⟨rfl, rfl, rfl, rfl, rfl, rfl⟩, broadcastTo_1b_ab_apply, shapeCast_a_1a_apply,
    shapeCast_self, shapeCast_self]
  refine congrArg (· + x2 (ix1 q)) (Finset.sum_congr rfl fun k _ => ?_)
  rw [transpose_ix2_apply]

end Cert.KernelIdeal.Body

end
-- ==== Proof.Tiles.lean ====
import proofs.«158711_j541165879839_1_alg».proof.Proof.Gen.KernelIdeal.Frame
import proofs.«158711_j541165879839_1_alg».proof.Proof.BodyTile
import proofs.«158711_j541165879839_1_alg».proof.Proof.TernaryLinear
import Idealize.ShloMosaic.Lib.Pipeline.Value
import Idealize.ShloMosaic.Lib.ValueIdx

/-!
# From tiles to the whole 8192 × 16384 array

Grid point `(j, i)` reads activation rows `512 i … 512 i + 511`, weight rows and bias entries
`1024 j … 1024 j + 1023`, and writes back the tile at rows `512 i …`, columns `1024 j …`. So every tile is a block
of ONE array, the layer on 8192 rows, and the 16 × 16 tiles cover it: the array after the region is that function
of the three arrays the region finds.
-/

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 256 grid points: the activation block follows the tile's row block, the
    weight and bias blocks follow the tile's column block, and both block numbers stay below 16. -/
theorem index_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 1) = win0_3.index t (1 : Fin 2)
    ∧ win0_3.index t (0 : Fin 2) ≤ 15 ∧ win0_3.index t (1 : Fin 2) ≤ 15 :=
  (by decide +kernel : ∀ t : Fin grid0.N, _)

/-- Every pair of block numbers below 16 is some grid point's tile. -/
theorem index_onto : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-- A tile of the layer on rows, entry by entry: the entry `(p, q)` of the tile at grid point `t` is row `p` of the point's
    activation block against row `q` of its weight block plus entry `q` of its bias block, because those blocks start
    at the tile's own first row and first column. -/
theorem tile_of_rows (t : Fin cfg0.N) (X : S8192x4096.Idx → EReal) (W : S16384x4096.Idx → EReal) (B : S16384.Idx → EReal)
    (p : Fin 512) (q : Fin 1024) :
    Cert.TernaryLinear.entry (((cfg0.win 0).blk t).view.read (Elt Ideal) X) (((cfg0.win 1).blk t).view.read (Elt Ideal) W)
        (((cfg0.win 2).blk t).view.read (Elt Ideal) B) p q
      = ((cfg0.win 3).blk t).view.read (Elt Ideal) (Cert.TernaryLinear.rows X W B) (ix2 p q) := by
  obtain ⟨e0, e1, e2, e3, e4, -, -⟩ := index_facts t
  have h0 : ∀ k : Fin 4096, ((cfg0.win 0).blk t).view.emb (ix2 p k)
      = ix2 ((((cfg0.win 3).blk t).view.emb (ix2 p q)) 0) k := by
    intro k; funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  have h1 : ∀ k : Fin 4096, ((cfg0.win 1).blk t).view.emb (ix2 q k)
      = ix2 ((((cfg0.win 3).blk t).view.emb (ix2 p q)) 1) k := by
    intro k; funext a; apply Fin.ext
    match a with
    | ⟨0, _⟩ => show win0_1.index t (0 : Fin 2) * 1024 + 1 * q.val = win0_3.index t (1 : Fin 2) * 1024 + 1 * q.val; omega
    | ⟨1, _⟩ => show win0_1.index t (1 : Fin 2) * 4096 + 1 * k.val = k.val; omega
  have h2 : ((cfg0.win 2).blk t).view.emb (ix1 q) = ix1 ((((cfg0.win 3).blk t).view.emb (ix2 p q)) 1) := by
    funext a; apply Fin.ext
    match a with
    | ⟨0, _⟩ => show win0_2.index t (0 : Fin 1) * 1024 + 1 * q.val = win0_3.index t (1 : Fin 2) * 1024 + 1 * q.val; omega
  show (∑ k : Fin 4096, X (((cfg0.win 0).blk t).view.emb (ix2 p k)) * W (((cfg0.win 1).blk t).view.emb (ix2 q k)))
      + B (((cfg0.win 2).blk t).view.emb (ix1 q))
    = (∑ k : Fin 4096, X (ix2 ((((cfg0.win 3).blk t).view.emb (ix2 p q)) 0) k) * W (ix2 ((((cfg0.win 3).blk t).view.emb (ix2 p q)) 1) k))
      + B (ix1 ((((cfg0.win 3).blk t).view.emb (ix2 p q)) 1))
  rw [h2]
  refine congrArg (· + B (ix1 ((((cfg0.win 3).blk t).view.emb (ix2 p q)) 1))) (Finset.sum_congr rfl fun k _ => ?_)
  rw [h0 k, h1 k]
  rfl

/-- What grid point `t` writes back is block `t` of the layer on 8192 rows, taken of the arrays as the region finds
    them. -/
theorem flushed_eq (c : Dev nD) (t : Fin cfg0.N) :
    (dats m 0 c).flushed 3 t = ((cfg0.win 3).blk t).view.read (Elt Ideal)
      (Cert.TernaryLinear.rows (V m c main_v11) (V m c main_v9) (V m c main_arg2)) := by
  show (cfg0.win 3).cut (grid0.coords t) ((dats m 0 c).after 3 t) = _
  rw [after0_3]
  unfold out0_3
  rw [View.canon_unit_zero zero2]
  simp only [View.ld_unit_zero (S := S512x4096) zero2, View.ld_unit_zero (S := S1024x4096) zero2, View.ld_unit_zero (S := S1024) zero1]
  funext j
  obtain ⟨p, q, rfl⟩ : ∃ (p : Fin 512) (q : Fin 1024), j = ix2 p q := ⟨j 0, j 1, eq_ix2 j⟩
  show k0_pay1 (iblk m c 0 t) (iblk m c 1 t) (iblk m c 2 t) (ix2 p q) = _
  refine (Cert.KernelIdeal.Body.tile_apply _ _ _ p q).trans ?_
  exact tile_of_rows t (V m c main_v11) (V m c main_v9) (V m c main_arg2) p q

/-- An index of the array lies in grid point `t`'s tile iff each coordinate lies in the tile's range on its axis. -/
theorem mem_tile (t : Fin cfg0.N) (i : S8192x16384.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v12).slice (win0_3.rect t)).set ↔ _
  rw [View.set_slice_whole, Rect.mem_set_unit]
  exact Iff.rfl

/-- Every index of the array lies in some grid point's tile: row `r` in row block `r / 512`, column `o` in column
    block `o / 1024`. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := index_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array after the region: the layer on 8192 rows, of the arrays as the region finds them. -/
theorem final (c : Dev nD) : (dats m 0 c).arrAt 3 cfg0.N
    = Cert.TernaryLinear.rows (V m c main_v11) (V m c main_v9) (V m c main_arg2) :=
  (dats m 0 c).arrAt_eq_of_cover 3 _ (fun t _ => flushed_eq m c t) covered

end Cert.KernelIdeal.Tiles

end
-- ==== Proof.FoundArrays.lean ====
import proofs.«158711_j541165879839_1_alg».proof.Proof.Gen.KernelIdeal.Frame
import proofs.«158711_j541165879839_1_alg».proof.Proof.TernaryLinear
import Idealize.ShloMosaic.Lib.Pipeline.Value
import Idealize.ShloMosaic.Lib.StableHlo.Run

/-!
# The arrays the region finds

Before the region the program quantises the weights and lays the activations out as rows; a change of float format
is the identity on the extended reals. So the region finds the activations as the 8192 × 4096 row-major
rearrangement of the argument, and the weights as the ternary weights of the argument.
-/

noncomputable section

namespace Cert.KernelIdeal.Found

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The activation rows: the argument read in row-major order as 8192 rows of 4096. -/
theorem acts (c : Dev nD) : (V m c main_v11 : S8192x4096.Idx → EReal)
    = shapeCast S8192x4096 (m ((c : Thread nD τ).loc main_arg0)) shapeCasts_S2x4096x4096_S8192x4096 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The weight rows: the ternary weights of the argument. -/
theorem weights (c : Dev nD) : (V m c main_v9 : S16384x4096.Idx → EReal)
    = Cert.TernaryLinear.ternary reducesTo_S16384x4096_S_d0_1 h_S_ bcast_S_S16384x4096 (m ((c : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

end Cert.KernelIdeal.Found

end
-- ==== Proof.KernelLayer.lean ====
import proofs.«158711_j541165879839_1_alg».proof.Proof.Gen.KernelIdeal.Frame
import proofs.«158711_j541165879839_1_alg».proof.Proof.TernaryLinear
import proofs.«158711_j541165879839_1_alg».proof.Proof.RowsLayout
import proofs.«158711_j541165879839_1_alg».proof.Proof.Tiles
import proofs.«158711_j541165879839_1_alg».proof.Proof.FoundArrays
import Idealize.ShloMosaic.Lib.Pipeline.Value
import Idealize.ShloMosaic.Lib.StableHlo.Run

/-!
# The kernel program computes the layer

After the region the program folds the 8192 × 16384 array back to 2 × 4096 × 16384. The array is the layer on the
8192 activation rows over the ternary weights; folded back, it is the layer of the arguments.
-/

noncomputable section

namespace Cert.KernelIdeal.Layer

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The program's result is the row-major rearrangement, to 2 × 4096 × 16384, of whatever the region leaves in its
    output array. -/
theorem tail_eq (c : Dev nD) (R : S8192x16384.Idx → EReal) (hR : (dats m 0 c).arrAt 3 cfg0.N = R) :
    (Pipeline.afterTail₀ cfgs (dats m) 0 (V0 m) [hostOps1] c main_v13 : S2x4096x16384.Idx → EReal)
      = shapeCast S2x4096x16384 R shapeCasts_S8192x16384_S2x4096x16384 := by
  unfold Pipeline.afterTail₀
  show StableHlo.after hostOps1 _ (Proc.devRef .tc main_v13) = _
  after_results
  have hA : (Pipeline.withArrays (cfgs 0).spec c (V0 m c) (fun w => (dats m 0 c).arrAt w (cfgs 0).N)
      (Proc.devRef .tc main_v12) : S8192x16384.Idx → EReal) = R :=
    (Pipeline.withArrays_arr spec0 launch0.win.arr_inj c _ _ 3).trans hR
  show shapeCast S2x4096x16384 (Pipeline.withArrays (cfgs 0).spec c (V0 m c) (fun w => (dats m 0 c).arrAt w (cfgs 0).N)
      (Proc.devRef .tc main_v12)) shapeCasts_S8192x16384_S2x4096x16384 = _
  rw [hA]

/-- The program's result: the layer of the activations, the ternary weights of the weight argument, and the bias. -/
theorem result_eq (c : Dev nD) :
    (Pipeline.afterTail₀ cfgs (dats m) 0 (V0 m) [hostOps1] c main_v13 : S2x4096x16384.Idx → EReal)
      = Cert.TernaryLinear.linear (m ((c : Thread nD τ).loc main_arg0))
          (Cert.TernaryLinear.ternary reducesTo_S16384x4096_S_d0_1 h_S_ bcast_S_S16384x4096 (m ((c : Thread nD τ).loc main_arg1)))
          (m ((c : Thread nD τ).loc main_arg2)) := by
  refine (tail_eq m c _ (Cert.KernelIdeal.Tiles.final m c)).trans ?_
  rw [Cert.KernelIdeal.Found.acts, Cert.KernelIdeal.Found.weights, V_main_arg2]
  exact Cert.TernaryLinear.rows_reshape _ _ _ _ _

/-- Every weakly fair execution of the kernel program terminates with its result at the layer of the arguments and
    the arguments unchanged. -/
theorem run : θ_run defs (onTc (τ := τ) (main (F := Ideal))) ⟨m, fun _ => 0, ρ⟩ fun r => ∀ c : Dev nD,
      r.2.mem ((c.tc : Thread nD τ).loc main_v13) = Cert.TernaryLinear.linear (m ((c : Thread nD τ).loc main_arg0))
          (Cert.TernaryLinear.ternary reducesTo_S16384x4096_S_d0_1 h_S_ bcast_S_S16384x4096 (m ((c : Thread nD τ).loc main_arg1)))
          (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Layer

end
-- ==== Proof.ReferenceLayer.lean ====
import proofs.«158711_j541165879839_1_alg».proof.Proof.Gen.ReferenceIdeal.Read
import proofs.«158711_j541165879839_1_alg».proof.Proof.TernaryLinear
import Idealize.ShloMosaic.Lib.ValueIdx

/-!
# The reference computes the layer

The reference quantises the weights to `W`, spells them once more as `w + (W − w)`, contracts the activations with
that array over the shared 4096 columns and adds the bias along the last axis. Where every weight is a real number
the second spelling is `W` itself, so the result is the layer over the ternary weights, entry by entry.
-/

noncomputable section

namespace Cert.ReferenceIdeal.Entry

open Cert.ReferenceIdeal Cert.ReferenceIdeal.Gen Cert.ReferenceIdeal.Read Idealize.ShloMosaic Idealize.ShloMosaic.ValueIdx
open scoped BigOperators

/-- The reference's quantised weights are the ternary weights. -/
theorem weights_eq (w : (⟨S16384x4096, .f32⟩ : BufTy).Contents (Elt Ideal)) :
    val_main_v8 (F := Ideal) w
      = Cert.TernaryLinear.ternary reducesTo_S16384x4096_S_d0_1 h_S_ bcast_S_S16384x4096 w := rfl

/-- The reference's result, when every weight is a real number. -/
theorem result_eq (x : (⟨S2x4096x4096, .f32⟩ : BufTy).Contents (Elt Ideal)) (w : (⟨S16384x4096, .f32⟩ : BufTy).Contents (Elt Ideal))
    (b : (⟨S16384, .f32⟩ : BufTy).Contents (Elt Ideal)) (hw : ∀ i, ∃ r : ℝ, w i = (r : EReal)) :
    val_main_v14 (F := Ideal) x w b
      = Cert.TernaryLinear.linear x (Cert.TernaryLinear.ternary reducesTo_S16384x4096_S_d0_1 h_S_ bcast_S_S16384x4096 w) b := by
  funext i
  obtain ⟨d, s, o, rfl⟩ : ∃ (d : Fin 2) (s : Fin 4096) (o : Fin 16384), i = ix3 d s o := ⟨i 0, i 1, i 2, eq_ix3 i⟩
  have el : ∀ k : Fin 4096, lidx_main_v11 (ix3 d s o) k = ix3 d s k := fun k => funext fun a => Fin.ext (by
    match a with | ⟨0, _⟩ => rfl | ⟨1, _⟩ => rfl | ⟨2, _⟩ => rfl)
  have er : ∀ k : Fin 4096, ridx_main_v11 (ix3 d s o) k = ix2 o k := fun k => funext fun a => Fin.ext (by
    match a with | ⟨0, _⟩ => rfl | ⟨1, _⟩ => rfl)
  have eb : idx_main_v12 (idx_main_v13 (ix3 d s o)) = ix1 o := funext fun a => Fin.ext (by
    match a with | ⟨0, _⟩ => rfl)
  rw [val_main_v14_apply, val_main_v11_apply, val_main_v13_apply, val_main_v12_apply, eb]
  show (∑ k : Fin 4096, x (lidx_main_v11 (ix3 d s o) k) * val_main_v10 (F := Ideal) w (ridx_main_v11 (ix3 d s o) k)) + b (ix1 o)
    = (∑ k : Fin 4096, x (ix3 d s k) * Cert.TernaryLinear.ternary reducesTo_S16384x4096_S_d0_1 h_S_ bcast_S_S16384x4096 w (ix2 o k)) + b (ix1 o)
  refine congrArg (· + b (ix1 o)) (Finset.sum_congr rfl fun k _ => ?_)
  rw [el, er, val_main_v10_apply, val_main_v9_apply, weights_eq]
  obtain ⟨r, hr⟩ := hw (ix2 o k)
  show x (ix3 d s k) * (w (ix2 o k) + (Cert.TernaryLinear.ternary reducesTo_S16384x4096_S_d0_1 h_S_ bcast_S_S16384x4096 w (ix2 o k) - w (ix2 o k))) = _
  rw [hr, Cert.TernaryLinear.add_sub_self_of_real]

end Cert.ReferenceIdeal.Entry

end
-- ==== Proof.lean ====
/- The proof of `Cert.Claim`: a linear layer over ternary weights, `y[b, s, o] = ∑ i, x[b, s, i] · W[o, i] + bias[o]` with
   `W = α · clamp(roundeven(w / α), -1, 1)`, `α` the mean absolute weight.

   The kernel program quantises the weights, lays the activations out as 8192 rows, computes the 8192 × 16384 result in
   16 × 16 tiles of 512 × 1024 (each a block of activation rows against a block of weight rows plus a block of the bias),
   and folds the rows back. The reference quantises the weights the same way, spells them again as `w + (W − w)`, and
   contracts the activations with that. On the extended reals a change of float format is the identity, a product into a
   zero accumulator and the host's contraction are the same finite sum, and `w + (W − w) = W` wherever `w` is a real number,
   which the precondition gives. So both programs end with the same array, entry by entry.

   The three frames: the two kernel programs' are the generated frame certificates, the reference's is its generated run
   with the result dropped. The idealisation rewrote nothing, so it is preserved trivially. -/
import proofs.«158711_j541165879839_1_alg».proof.Defs
import proofs.«158711_j541165879839_1_alg».proof.Proof.Gen.Kernel
import proofs.«158711_j541165879839_1_alg».proof.Proof.Gen.Kernel.Skeleton
import proofs.«158711_j541165879839_1_alg».proof.Proof.Gen.Kernel.Launch
import proofs.«158711_j541165879839_1_alg».proof.Proof.Gen.Kernel.Points
import proofs.«158711_j541165879839_1_alg».proof.Proof.Gen.Kernel.Frame
import proofs.«158711_j541165879839_1_alg».proof.Proof.Gen.KernelIdeal
import proofs.«158711_j541165879839_1_alg».proof.Proof.Gen.KernelIdeal.Skeleton
import proofs.«158711_j541165879839_1_alg».proof.Proof.Gen.KernelIdeal.Launch
import proofs.«158711_j541165879839_1_alg».proof.Proof.Gen.KernelIdeal.Points
import proofs.«158711_j541165879839_1_alg».proof.Proof.Gen.KernelIdeal.Frame
import proofs.«158711_j541165879839_1_alg».proof.Proof.Gen.ReferenceIdeal
import proofs.«158711_j541165879839_1_alg».proof.Proof.Gen.Pre_finite_inputs
import proofs.«158711_j541165879839_1_alg».proof.Proof.Gen.ReferenceIdeal.Run
import proofs.«158711_j541165879839_1_alg».proof.Proof.Gen.ReferenceIdeal.Read
import proofs.«158711_j541165879839_1_alg».proof.Proof.TernaryLinear
import proofs.«158711_j541165879839_1_alg».proof.Proof.Finite
import proofs.«158711_j541165879839_1_alg».proof.Proof.KernelLayer
import proofs.«158711_j541165879839_1_alg».proof.Proof.ReferenceLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealised programs end with the layer of the arguments: the kernel program by its tiles, the reference because
    the precondition makes every weight a real number, where its second spelling of the ternary weights is the first. -/
theorem algebraic : Cert.algebraic_KernelIdeal_ReferenceIdeal := by
  intro m ρ m' ρ' hpre hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  exact Cert.ReferenceIdeal.Entry.result_eq _ _ _ (fun i => Cert.Finite.weight_real _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
